-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x3000 : Shape := ⟨3, ![4, 128, 3000]⟩
abbrev S4x3000x6000 : Shape := ⟨3, ![4, 3000, 6000]⟩
abbrev S4x6000 : Shape := ⟨2, ![4, 6000]⟩
abbrev S_ : Shape := ⟨0, ![]⟩

class Facts : Prop where
  bcast_S_S4x128x3000 : S_.BroadcastsInDim S4x128x3000 (![] : Fin 0 → Fin S4x128x3000.rank)
  reducesTo_S4x128x3000_S_d0_1_2 : S4x128x3000.ReducesTo [0, 1, 2] S_
  h_S_ : 0 < S_.numel
  bcast_S_S4x3000x6000 : S_.BroadcastsInDim S4x3000x6000 (![] : Fin 0 → Fin S4x3000x6000.rank)
  reducesTo_S4x3000x6000_S_d0_1_2 : S4x3000x6000.ReducesTo [0, 1, 2] S_
  bcast_S_S4x6000 : S_.BroadcastsInDim S4x6000 (![] : Fin 0 → Fin S4x6000.rank)
  reducesTo_S4x6000_S_d0_1 : S4x6000.ReducesTo [0, 1] S_

variable [Facts]

def fn {F : FTy → Type} [FloatOps F] (main_arg0 : FVec F S4x128x3000 .f32) (main_arg1 : FVec F S4x3000x6000 .f32) (main_arg2 : FVec F S4x6000 .f32) : IVec S_ 1 :=
  let main_v0 : FVec F S4x128x3000 .f32 := Host.absf main_arg0
  let main_cst : FVec F S_ .f32 := constant S_ .f32 0x7F800000#32
  let main_v1 : FVec F S4x128x3000 .f32 := broadcastInDim S4x128x3000 ![] bcast_S_S4x128x3000 main_cst
  let main_v2 : IVec S4x128x3000 1 := cmpf .olt main_v0 main_v1
  let main_c : IVec S_ 1 := constantI S_ 1 1#1
  let main_v3 : IVec S_ 1 := (fun x v => Host.reduce IntOp.andi x v reducesTo_S4x128x3000_S_d0_1_2 h_S_) main_v2 main_c
  let main_v4 : FVec F S4x3000x6000 .f32 := Host.absf main_arg1
  let main_cst_0 : FVec F S_ .f32 := constant S_ .f32 0x7F800000#32
  let main_v5 : FVec F S4x3000x6000 .f32 := broadcastInDim S4x3000x6000 ![] bcast_S_S4x3000x6000 main_cst_0
  let main_v6 : IVec S4x3000x6000 1 := cmpf .olt main_v4 main_v5
  let main_c_1 : IVec S_ 1 := constantI S_ 1 1#1
  let main_v7 : IVec S_ 1 := (fun x v => Host.reduce IntOp.andi x v reducesTo_S4x3000x6000_S_d0_1_2 h_S_) main_v6 main_c_1
  let main_v8 : IVec S_ 1 := andi main_v3 main_v7
  let main_v9 : FVec F S4x6000 .f32 := Host.absf main_arg2
  let main_cst_2 : FVec F S_ .f32 := constant S_ .f32 0x7F800000#32
  let main_v10 : FVec F S4x6000 .f32 := broadcastInDim S4x6000 ![] bcast_S_S4x6000 main_cst_2
  let main_v11 : IVec S4x6000 1 := cmpf .olt main_v9 main_v10
  let main_c_3 : IVec S_ 1 := constantI S_ 1 1#1
  let main_v12 : IVec S_ 1 := (fun x v => Host.reduce IntOp.andi x v reducesTo_S4x6000_S_d0_1 h_S_) main_v11 main_c_3
  let main_v13 : IVec S_ 1 := andi main_v8 main_v12
  main_v13
-- ==== Kernel.lean ====
abbrev S4x128x3000 : Shape := ⟨3, ![4, 128, 3000]⟩
abbrev S4x3000x6000 : Shape := ⟨3, ![4, 3000, 6000]⟩
abbrev S4x6000 : Shape := ⟨2, ![4, 6000]⟩
abbrev S4x1x6000 : Shape := ⟨3, ![4, 1, 6000]⟩
abbrev S4x128x6000 : Shape := ⟨3, ![4, 128, 6000]⟩
abbrev S1x128x3000 : Shape := ⟨3, ![1, 128, 3000]⟩
abbrev S1x3000x512 : Shape := ⟨3, ![1, 3000, 512]⟩
abbrev S1x1x512 : Shape := ⟨3, ![1, 1, 512]⟩
abbrev S1x128x512 : Shape := ⟨3, ![1, 128, 512]⟩
abbrev S3000x512 : Shape := ⟨2, ![3000, 512]⟩
abbrev S1x512 : Shape := ⟨2, ![1, 512]⟩
abbrev S128x3000 : Shape := ⟨2, ![128, 3000]⟩
abbrev S128x512 : Shape := ⟨2, ![128, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x128x3000, .f32⟩
  | .hbm, ⟨1, _⟩ => ⟨S4x3000x6000, .f32⟩
  | .hbm, ⟨2, _⟩ => ⟨S4x6000, .f32⟩
  | .hbm, ⟨3, _⟩ => ⟨S4x1x6000, .f32⟩
  | .hbm, ⟨4, _⟩ => ⟨S4x128x6000, .f32⟩
  | .local _ .vmem, ⟨0, _⟩ => ⟨S1x128x3000, .f32⟩
  | .local _ .vmem, ⟨1, _⟩ => ⟨S1x128x3000, .f32⟩
  | .local _ .vmem, ⟨2, _⟩ => ⟨S1x3000x512, .f32⟩
  | .local _ .vmem, ⟨3, _⟩ => ⟨S1x3000x512, .f32⟩
  | .local _ .vmem, ⟨4, _⟩ => ⟨S1x1x512, .f32⟩
  | .local _ .vmem, ⟨5, _⟩ => ⟨S1x1x512, .f32⟩
  | .local _ .vmem, ⟨6, _⟩ => ⟨S1x128x512, .f32⟩
  | .local _ .vmem, ⟨7, _⟩ => ⟨S1x128x512, .f32⟩
  | _, _ => ⟨S4x128x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4x6000_S4x1x6000_0_2 : S4x6000.BroadcastsInDim S4x1x6000 (![0, 2] : Fin 2 → Fin S4x1x6000.rank)
  inb_S1x3000x512_S1x3000x512_0_0_0 : ∀ a, (![0, 0, 0] : Fin 3 → Nat) a + S1x3000x512.size a ≤ S1x3000x512.size a
  h_S1x3000x512 : 0 < S1x3000x512.numel
  shapeCasts_S1x3000x512_S3000x512 : S1x3000x512.ShapeCasts S3000x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S3000x512 : S1x512.Broadcasts S3000x512
  inb_S1x128x3000_S1x128x3000_0_0_0 : ∀ a, (![0, 0, 0] : Fin 3 → Nat) a + S1x128x3000.size a ≤ S1x128x3000.size a
  h_S1x128x3000 : 0 < S1x128x3000.numel
  shapeCasts_S1x128x3000_S128x3000 : S1x128x3000.ShapeCasts S128x3000
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  dot_S128x3000_S3000x512_S128x512_1_0_0_1_n_n_wf : DotDims.WF S128x3000 S3000x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3000.size a ≤ S4x128x3000.size a
  hwx0_0 : ∀ i : grid0.Coords, EltTy.bits .f32 = 32 ∨ (Rect.block (s := S4x128x3000) S1x128x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x3000x512.size a < S4x3000x6000.size a
  hwx0_1 : ∀ i : grid0.Coords, EltTy.bits .f32 = 32 ∨ (Rect.unit (s := S4x3000x6000) (fun a => cc0_transform_1 i a * S1x3000x512.size a) (fun a => (Pipeline.Clip.of (cc0_transform_1 i a) (S1x3000x512.size a) (S4x3000x6000.size a)).extent (S1x3000x512.size a)) fun a => Pipeline.Clip.inb (Pipeline.Clip.ok_of (hstart0_1 i a))).WholeWords (EltTy.packing .f32)
  hwxs0_1 : ∀ i : grid0.Coords, EltTy.bits .f32 = 32 ∨ (Rect.unit (s := S1x3000x512) (fun _ => 0) (fun a => (Pipeline.Clip.of (cc0_transform_1 i a) (S1x3000x512.size a) (S4x3000x6000.size a)).extent (S1x3000x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1x512.size a < S4x1x6000.size a
  hwx0_2 : ∀ i : grid0.Coords, EltTy.bits .f32 = 32 ∨ (Rect.unit (s := S4x1x6000) (fun a => cc0_transform_2 i a * S1x1x512.size a) (fun a => (Pipeline.Clip.of (cc0_transform_2 i a) (S1x1x512.size a) (S4x1x6000.size a)).extent (S1x1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x1x512) (fun _ => 0) (fun a => (Pipeline.Clip.of (cc0_transform_2 i a) (S1x1x512.size a) (S4x1x6000.size a)).extent (S1x1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x128x512.size a < S4x128x6000.size a
  hwx0_3 : ∀ i : grid0.Coords, EltTy.bits .f32 = 32 ∨ (Rect.unit (s := S4x128x6000) (fun a => cc0_transform_3 i a * S1x128x512.size a) (fun a => (Pipeline.Clip.of (cc0_transform_3 i a) (S1x128x512.size a) (S4x128x6000.size a)).extent (S1x128x512.size a)) fun a => Pipeline.Clip.inb (Pipeline.Clip.ok_of (hstart0_3 i a))).WholeWords (EltTy.packing .f32)
  hwxs0_3 : ∀ i : grid0.Coords, EltTy.bits .f32 = 32 ∨ (Rect.unit (s := S1x128x512) (fun _ => 0) (fun a => (Pipeline.Clip.of (cc0_transform_3 i a) (S1x128x512.size a) (S4x128x6000.size a)).extent (S1x128x512.size a)) fun a => (Nat.zero_add _).trans_le (Pipeline.Clip.extent_le (Pipeline.Clip.ok_of (hstart0_3 i a)))).WholeWords (EltTy.packing .f32)

variable [Facts₀]

def dot_S128x3000_S3000x512_S128x512_1_0_0_1_n_n : DotDims S128x3000 S3000x512 S128x512 where
  lhsContracting := [1]
  rhsContracting := [0]
  lhsNonContracting := [0]
  rhsNonContracting := [1]
  lhsBatch := []
  rhsBatch := []
  wf := dot_S128x3000_S3000x512_S128x512_1_0_0_1_n_n_wf

abbrev win0_0 : Pipeline.Window sig grid0 :=
  Pipeline.Window.ofSpec (Memref.whole main_arg0) S1x128x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x3000x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1x128x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x3000 : Shape := ⟨3, ![4, 128, 3000]⟩
abbrev S4x3000x6000 : Shape := ⟨3, ![4, 3000, 6000]⟩
abbrev S4x6000 : Shape := ⟨2, ![4, 6000]⟩
abbrev S4x1x6000 : Shape := ⟨3, ![4, 1, 6000]⟩
abbrev S4x128x6000 : Shape := ⟨3, ![4, 128, 6000]⟩

abbrev nBuf : Space → Nat
  | .hbm => 7
  | .vmem => 0
  | .smem => 0
  | _ => 0

abbrev bufTy : (tb : Table) → Fin (tcTables nBuf tb) → BufTy
  | .hbm, ⟨0, _⟩ => ⟨S4x128x3000, .f32⟩
  | .hbm, ⟨1, _⟩ => ⟨S4x3000x6000, .f32⟩
  | .hbm, ⟨2, _⟩ => ⟨S4x6000, .f32⟩
  | .hbm, ⟨3, _⟩ => ⟨S4x1x6000, .f32⟩
  | .hbm, ⟨4, _⟩ => ⟨S4x3000x6000, .f32⟩
  | .hbm, ⟨5, _⟩ => ⟨S4x3000x6000, .f32⟩
  | .hbm, ⟨6, _⟩ => ⟨S4x128x6000, .f32⟩
  | _, _ => ⟨S4x128x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4x6000_S4x1x6000_0_2 : S4x6000.BroadcastsInDim S4x1x6000 (![0, 2] : Fin 2 → Fin S4x1x6000.rank)
  bcast_S4x1x6000_S4x3000x6000_0_1_2 : S4x1x6000.BroadcastsInDim S4x3000x6000 (![0, 1, 2] : Fin 3 → Fin S4x3000x6000.rank)
  dot_S4x128x3000_S4x3000x6000_S4x128x6000_2_1_1_2_0_0_wf : DotDims.WF S4x128x3000 S4x3000x6000 S4x128x6000 [2] [1] [1] [2] [0] [0]

variable [Facts₀]

def dot_S4x128x3000_S4x3000x6000_S4x128x6000_2_1_1_2_0_0 : DotDims S4x128x3000 S4x3000x6000 S4x128x6000 where
  lhsContracting := [2]
  rhsContracting := [1]
  lhsNonContracting := [1]
  rhsNonContracting := [2]
  lhsBatch := [0]
  rhsBatch := [0]
  wf := dot_S4x128x3000_S4x3000x6000_S4x128x6000_2_1_1_2_0_0_wf

class Facts : Prop extends Facts₀ where

variable [Facts]
-- ==== Proof.KernelBody.lean ====
/-
  The kernel body of `Kernel` on whole staging buffers, at any float instance.

  One grid point multiplies a [128, 3000] block of the first operand by the [3000, 512] block of the second, each column of
  which is first divided by the matching entry of a [1, 512] row of the third; the product is stored over the whole
  [128, 512] result buffer.  The body reads its three input buffers whole, reads the result buffer once without using the
  value, and overwrites the result buffer whole: so the inputs are left as found and the result buffer ends at one pure
  function `result` of the three input buffers' contents, whatever it held before.
-/
import proofs.«157500_j15118284881949_1_alg».proof.Proof.Gen.Kernel.Frame
import proofs.«157500_j15118284881949_1_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rLeft : Rect S1x128x3000 := Rect.unit (s := S1x128x3000) ![0, 0, 0] S1x128x3000.size inb_S1x128x3000_S1x128x3000_0_0_0
abbrev rRight : Rect S1x3000x512 := Rect.unit (s := S1x3000x512) ![0, 0, 0] S1x3000x512.size inb_S1x3000x512_S1x3000x512_0_0_0
abbrev rDiv : Rect S1x1x512 := Rect.unit (s := S1x1x512) ![0, 0, 0] S1x1x512.size inb_S1x1x512_S1x1x512_0_0_0
abbrev rOut : Rect S1x128x512 := Rect.unit (s := S1x128x512) ![0, 0, 0] S1x128x512.size inb_S1x128x512_S1x128x512_0_0_0

/-- What the result buffer holds after the body, from the contents of the three input buffers: its one store. -/
def result (x0 : Vec F S1x128x3000 .f32) (x1 : Vec F S1x3000x512 .f32) (x2 : Vec F S1x1x512 .f32) : Vec F S1x128x512 .f32 :=
  View.canon [⟨rOut, k0_pay1 (View.ld x1 rRight) (View.ld x2 rDiv) (View.ld x0 rLeft)⟩]

/-- The one store covers the buffer. -/
theorem cover (p0 : Vec F S1x128x512 .f32) (y : S1x128x512.Idx) :
    ∃ pc ∈ ([⟨rOut, p0⟩] : List (View.Piece (Elt F) S1x128x512 .f32)), y ∈ pc.1.set :=
  View.cover_of_tiled [⟨rOut, p0⟩] S1x128x512.size (by rfl) y

set_option maxHeartbeats 1000000 in
/-- The body on whole staging memrefs, the inputs' at contents `x0`, `x1`, `x2` and the result's at anything, runs to
    the continuation with the inputs as they were and the result buffer at `result x0 x1 x2`. -/
theorem sound_kernel (c : Dev nD) (E : Set ℕ) (i : grid0.Coords)
    (arg2 : Memref sig .tc .vmem S1x128x3000 .f32) (harg2 : arg2.IsWhole) (arg3 : Memref sig .tc .vmem S1x3000x512 .f32) (harg3 : arg3.IsWhole)
    (arg4 : Memref sig .tc .vmem S1x1x512 .f32) (harg4 : arg4.IsWhole) (arg5 : Memref sig .tc .vmem S1x128x512 .f32) (harg5 : arg5.IsWhole)
    (x0 : Vec F S1x128x3000 .f32) (x1 : Vec F S1x3000x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (result x0 x1 x2)) -∗ K ⟨⟩))
      ⊢ wp frame (wpE (defs₀ (F := F)) Variants.none c none) E (cc0__unpool_kernel i arg2 harg2 arg3 harg3 arg4 harg4 arg5 harg5) K := by
  simp only [cc0__unpool_kernel_eq_skeleton]; unfold cc0__unpool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.Kernel.Body

end
-- ==== Proof.KernelFrame.lean ====
/-
  The frame of the word-level kernel: it runs to the end, faults nowhere, and leaves its argument arrays unchanged.

  Nothing is said here about what the result array ends holding, so what the body leaves in the result's staging buffer
  is not named: the buffer is handed to the body at any contents and taken back at any contents.  The three input
  buffers are left as found — the first operand's at its block; the second operand's and the divisors', fetched at every
  point, at their blocks on the part the fetch moved.
-/
import proofs.«157500_j15118284881949_1_alg».proof.Proof.KernelBody
import Idealize.ShloMosaic.Lib.Pipeline.Frame

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose buffer's contents after the body are not named: the result's. -/
def forgets : Fin 4 → Bool := fun w => w.val == 3

/-- The second operand's block at point `t`: its part inside the array, filled out to the buffer's shape with the zero word. -/
def right (c : Dev nD) (t : Fin cfg0.N) : S1x3000x512.Idx → Elt F .f32 :=
  win0_1.fill (grid0.coords t) (fun _ => Scalar.ofBits .f32 0#32) (iblk m c 1 t)

/-- The divisors' block at point `t`, likewise. -/
def divisor (c : Dev nD) (t : Fin cfg0.N) : S1x1x512.Idx → Elt F .f32 :=
  win0_2.fill (grid0.coords t) (fun _ => Scalar.ofBits .f32 0#32) (iblk m c 2 t)

/-- The proof data: the arrays as the region finds them; after the body each input's buffer at its block (the cut ones'
    filled out); the result's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => right m c t
    | ⟨2, _⟩ => divisor m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = right m c t := by dsimp only [dats]
theorem after2 (c : Dev nD) (t : Fin cfg0.N) : (dats m 0 c).after 2 t = divisor m c t := by dsimp only [dats]

theorem before0 (c : Dev nD) (t : Fin cfg0.N) (d) : (dats m 0 c).before 0 t d = iblk m c 0 t :=
  before0_0_of m (dats m 0 c) (A_eq m c 0) (after0 m c) t d

theorem before1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]; try rfl

theorem before2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]; try rfl

/-- What the body is called with at point `t`; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩, ⟨%d3, H3⟩⟩
  iapply (Body.sound_kernel c Set.univ _ _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (right m c t) = iblk m c 1 t from win0_1.cut_fill _ _ _]
    iexact H1
  isplitl [H2]
  · iexists d2
    rw [show (cfg0.win 2).cut (cfg0.grid.coords t) (divisor m c t) = iblk m c 2 t from win0_2.cut_fill _ _ _]
    iexact H2
  · iexists _; iexact H3

theorem body_obligation (c : Dev nD) : BodyObligationLoose (dats (F := F) m 0 c) (defs₀ (F := F)) Variants.none () Set.univ forgets := fun t => by
  rw [bigSep_W0, bigSep_W0]
  exact sound_body m c t

set_option backward.isDefEq.respectTransparency.types false in
/-- Every weakly fair execution of @main terminates; every input array of the pipeline ends unchanged, nothing is stated
    of the result array, and every other unscoped buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the argument arrays end unchanged — the two the pipeline stages because an input array is never written,
    the third because no window stages it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 0 rfl _) _) ((h c).1 0)).trans ((A_eq m c 0).trans (V_main_arg0 m c)),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c)⟩) (run_main m ρ)

end Cert.Kernel.Data

end
-- ==== Proof.IdealBody.lean ====
/-
  The kernel body of `KernelIdeal` on whole staging buffers, at any float instance.

  One grid point multiplies a [128, 3000] block of the first operand by the [3000, 512] block of the second, each column of
  which is first divided by the matching entry of a [1, 512] row of the third; the product is stored over the whole
  [128, 512] result buffer.  The body reads its three input buffers whole, reads the result buffer once without using the
  value, and overwrites the result buffer whole: so the inputs are left as found and the result buffer ends at one pure
  function `result` of the three input buffers' contents, whatever it held before.
-/
import proofs.«157500_j15118284881949_1_alg».proof.Proof.Gen.KernelIdeal.Frame
import proofs.«157500_j15118284881949_1_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rLeft : Rect S1x128x3000 := Rect.unit (s := S1x128x3000) ![0, 0, 0] S1x128x3000.size inb_S1x128x3000_S1x128x3000_0_0_0
abbrev rRight : Rect S1x3000x512 := Rect.unit (s := S1x3000x512) ![0, 0, 0] S1x3000x512.size inb_S1x3000x512_S1x3000x512_0_0_0
abbrev rDiv : Rect S1x1x512 := Rect.unit (s := S1x1x512) ![0, 0, 0] S1x1x512.size inb_S1x1x512_S1x1x512_0_0_0
abbrev rOut : Rect S1x128x512 := Rect.unit (s := S1x128x512) ![0, 0, 0] S1x128x512.size inb_S1x128x512_S1x128x512_0_0_0

/-- What the result buffer holds after the body, from the contents of the three input buffers: its one store. -/
def result (x0 : Vec F S1x128x3000 .f32) (x1 : Vec F S1x3000x512 .f32) (x2 : Vec F S1x1x512 .f32) : Vec F S1x128x512 .f32 :=
  View.canon [⟨rOut, k0_pay1 (View.ld x1 rRight) (View.ld x2 rDiv) (View.ld x0 rLeft)⟩]

/-- The one store covers the buffer. -/
theorem cover (p0 : Vec F S1x128x512 .f32) (y : S1x128x512.Idx) :
    ∃ pc ∈ ([⟨rOut, p0⟩] : List (View.Piece (Elt F) S1x128x512 .f32)), y ∈ pc.1.set :=
  View.cover_of_tiled [⟨rOut, p0⟩] S1x128x512.size (by rfl) y

set_option maxHeartbeats 1000000 in
/-- The body on whole staging memrefs, the inputs' at contents `x0`, `x1`, `x2` and the result's at anything, runs to
    the continuation with the inputs as they were and the result buffer at `result x0 x1 x2`. -/
theorem sound_kernel (c : Dev nD) (E : Set ℕ) (i : grid0.Coords)
    (arg2 : Memref sig .tc .vmem S1x128x3000 .f32) (harg2 : arg2.IsWhole) (arg3 : Memref sig .tc .vmem S1x3000x512 .f32) (harg3 : arg3.IsWhole)
    (arg4 : Memref sig .tc .vmem S1x1x512 .f32) (harg4 : arg4.IsWhole) (arg5 : Memref sig .tc .vmem S1x128x512 .f32) (harg5 : arg5.IsWhole)
    (x0 : Vec F S1x128x3000 .f32) (x1 : Vec F S1x3000x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (result x0 x1 x2)) -∗ K ⟨⟩))
      ⊢ wp frame (wpE (defs₀ (F := F)) Variants.none c none) E (cc0__unpool_kernel i arg2 harg2 arg3 harg3 arg4 harg4 arg5 harg5) K := by
  simp only [cc0__unpool_kernel_eq_skeleton]; unfold cc0__unpool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.KernelIdeal.Body

end
-- ==== Proof.Spec.lean ====
/-
  The specification both programs are compared with, stated over plain arrays of extended reals.

  With `x0` of shape [4, 128, 3000], `x1` of shape [4, 3000, 6000] and `x2` of shape [4, 6000], the normalized product at
  (b, f, t) is the sum over e of `x0 (b, f, e) · (x1 (b, e, t) / x2 (b, t))`: each column t of batch b of `x1` is divided by
  one entry of `x2` and then contracted with row f of `x0`.  The division is the extended reals' total one, and no factor
  is moved across the sum, so nothing here needs the entries to be finite.
-/
import Idealize.ShloMosaic.PureOps.Ideal
import Idealize.ShloMosaic.Lib.ValueIdx

noncomputable section

namespace Cert.Unpool

open Idealize.ShloMosaic Idealize.ShloMosaic.ValueIdx
open scoped BigOperators

/-- The normalized product of the whole arrays, index by index. -/
def normProd (x0 : (⟨3, ![4, 128, 3000]⟩ : Shape).Idx → EReal) (x1 : (⟨3, ![4, 3000, 6000]⟩ : Shape).Idx → EReal)
    (x2 : (⟨2, ![4, 6000]⟩ : Shape).Idx → EReal) : (⟨3, ![4, 128, 6000]⟩ : Shape).Idx → EReal :=
  fun i => ∑ k : Fin 3000, x0 (ix3 (i 0 : Fin 4) (i 1 : Fin 128) k)
    * Ideal.div (x1 (ix3 (i 0 : Fin 4) k (i 2 : Fin 6000))) (x2 (ix2 (i 0 : Fin 4) (i 2 : Fin 6000)))

/-- The same product of one grid point's blocks: a [1, 128, 3000] block against a [1, 3000, 512] block whose column `l` is
    divided by entry `l` of a [1, 1, 512] row.  Column `l` of the result reads column `l` of the second block and entry `l` of
    the row, and no other column. -/
def blockProd (y0 : (⟨3, ![1, 128, 3000]⟩ : Shape).Idx → EReal) (y1 : (⟨3, ![1, 3000, 512]⟩ : Shape).Idx → EReal)
    (y2 : (⟨3, ![1, 1, 512]⟩ : Shape).Idx → EReal) (f : Fin 128) (l : Fin 512) : EReal :=
  ∑ k : Fin 3000, y0 (ix3 (0 : Fin 1) f k) * Ideal.div (y1 (ix3 (0 : Fin 1) k l)) (y2 (ix3 (0 : Fin 1) (0 : Fin 1) l))

/-- The block product at column `l` depends on the second block and on the row only through their column `l`. -/
theorem blockProd_congr (y0 : (⟨3, ![1, 128, 3000]⟩ : Shape).Idx → EReal) (y1 y1' : (⟨3, ![1, 3000, 512]⟩ : Shape).Idx → EReal)
    (y2 y2' : (⟨3, ![1, 1, 512]⟩ : Shape).Idx → EReal) (f : Fin 128) (l : Fin 512)
    (h1 : ∀ k : Fin 3000, y1 (ix3 (0 : Fin 1) k l) = y1' (ix3 (0 : Fin 1) k l))
    (h2 : y2 (ix3 (0 : Fin 1) (0 : Fin 1) l) = y2' (ix3 (0 : Fin 1) (0 : Fin 1) l)) :
    blockProd y0 y1 y2 f l = blockProd y0 y1' y2' f l := by
  unfold blockProd
  refine Finset.sum_congr rfl fun k _ => ?_
  rw [h1 k, h2]

end Cert.Unpool

end
-- ==== Proof.IdealPayload.lean ====
/-
  The body's result buffer read at an index, at the ideal instance.

  At the extended reals a change of float format is the identity and a matrix product into a zero accumulator is the
  plain sum over the contracted axis.  So entry (0, f, l) of the buffer the body stores is the sum over e of
  `x0 (0, f, e) · (x1 (0, e, l) / x2 (0, 0, l))`: the block product of the three input buffers' contents.
-/
import proofs.«157500_j15118284881949_1_alg».proof.Proof.IdealBody
import proofs.«157500_j15118284881949_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx
open scoped BigOperators

/-- The one whole store leaves its payload, and the whole loads read the buffers' contents: at any float instance the
    result buffer holds the body's arithmetic of the three input buffers. -/
theorem result_eq_pay {F : FTy → Type} [FloatOps F] (x0 : Vec F S1x128x3000 .f32) (x1 : Vec F S1x3000x512 .f32) (x2 : Vec F S1x1x512 .f32) :
    Body.result (F := F) x0 x1 x2 = k0_pay1 x1 x2 x0 := by
  have hz : (![0, 0, 0] : Fin 3 → Nat) = fun _ => 0 := funext fun a => by fin_cases a <;> rfl
  unfold Body.result
  rw [View.canon_unit_zero hz]
  simp only [View.ld_unit_zero (S := S1x3000x512) hz, View.ld_unit_zero (S := S1x1x512) hz, View.ld_unit_zero (S := S1x128x3000) hz]

/-- The operand indices of the product at output index `j` and contraction index `q`: the left operand is read at
    (row of `j`, `q`), the right at (`q`, column of `j`). -/
theorem lhs_row (j : S128x512.Idx) (q : dot_S128x3000_S3000x512_S128x512_1_0_0_1_n_n.contr.Idx) : (dot_S128x3000_S3000x512_S128x512_1_0_0_1_n_n.lhsIdx j q 0).val = (j 0).val := by
  unfold DotDims.lhsIdx
  rw [dif_neg (show ¬(0 : Fin S128x3000.rank) ∈ dot_S128x3000_S3000x512_S128x512_1_0_0_1_n_n.lhsBatch by decide),
    dif_pos (show (0 : Fin S128x3000.rank) ∈ dot_S128x3000_S3000x512_S128x512_1_0_0_1_n_n.lhsNonContracting by decide)]
  rfl
theorem lhs_contr (j : S128x512.Idx) (q : dot_S128x3000_S3000x512_S128x512_1_0_0_1_n_n.contr.Idx) : (dot_S128x3000_S3000x512_S128x512_1_0_0_1_n_n.lhsIdx j q 1).val = (q ⟨0, by decide⟩).val :=
  dot_S128x3000_S3000x512_S128x512_1_0_0_1_n_n.lhsIdx_val_of_single rfl j q
theorem rhs_contr (j : S128x512.Idx) (q : dot_S128x3000_S3000x512_S128x512_1_0_0_1_n_n.contr.Idx) : (dot_S128x3000_S3000x512_S128x512_1_0_0_1_n_n.rhsIdx j q 0).val = (q ⟨0, by decide⟩).val :=
  dot_S128x3000_S3000x512_S128x512_1_0_0_1_n_n.rhsIdx_val_of_single rfl j q
theorem rhs_col (j : S128x512.Idx) (q : dot_S128x3000_S3000x512_S128x512_1_0_0_1_n_n.contr.Idx) : (dot_S128x3000_S3000x512_S128x512_1_0_0_1_n_n.rhsIdx j q 1).val = (j 1).val := by
  unfold DotDims.rhsIdx
  rw [dif_neg (show ¬(1 : Fin S3000x512.rank) ∈ dot_S128x3000_S3000x512_S128x512_1_0_0_1_n_n.rhsBatch by decide),
    dif_pos (show (1 : Fin S3000x512.rank) ∈ dot_S128x3000_S3000x512_S128x512_1_0_0_1_n_n.rhsNonContracting by decide)]
  rfl

/-- The [128, 3000] × [3000, 512] matrix product into zero, at (f, l): the sum over the 3000 contracted coordinates. -/
theorem matmul_at (A : FVec Ideal S128x3000 .bf16) (B : FVec Ideal S3000x512 .bf16) (f : Fin 128) (l : Fin 512) :
    matmul dot_S128x3000_S3000x512_S128x512_1_0_0_1_n_n none A B (constant (F := Ideal) S128x512 .f32 0x00000000#32) (ix2 f l)
      = ∑ k : Fin 3000, A (ix2 f k) * B (ix2 k l) := by
  simp only [matmul]
  rw [Ideal.matmul_constant_zero_apply, ← Equiv.sum_comp (contrEquiv1 dot_S128x3000_S3000x512_S128x512_1_0_0_1_n_n 3000 rfl rfl).symm]
  refine Finset.sum_congr rfl fun k _ => ?_
  have hk := contrEquiv1_symm_val dot_S128x3000_S3000x512_S128x512_1_0_0_1_n_n 3000 rfl rfl k
  have el : dot_S128x3000_S3000x512_S128x512_1_0_0_1_n_n.lhsIdx (ix2 f l) ((contrEquiv1 dot_S128x3000_S3000x512_S128x512_1_0_0_1_n_n 3000 rfl rfl).symm k) = ix2 f k :=
    funext fun a => Fin.ext (by
      match a with
      | ⟨0, _⟩ => exact lhs_row _ _
      | ⟨1, _⟩ => exact (lhs_contr _ _).trans hk)
  have er : dot_S128x3000_S3000x512_S128x512_1_0_0_1_n_n.rhsIdx (ix2 f l) ((contrEquiv1 dot_S128x3000_S3000x512_S128x512_1_0_0_1_n_n 3000 rfl rfl).symm k) = ix2 k l :=
    funext fun a => Fin.ext (by
      match a with
      | ⟨0, _⟩ => exact (rhs_contr _ _).trans hk
      | ⟨1, _⟩ => exact rhs_col _ _)
  rw [el, er]

/-- The body's arithmetic at (u, f, l) is the block product of its three operands at (f, l). -/
theorem pay_at (x1 : Vec Ideal S1x3000x512 .f32) (x2 : Vec Ideal S1x1x512 .f32) (x0 : Vec Ideal S1x128x3000 .f32)
    (u : Fin 1) (f : Fin 128) (l : Fin 512) :
    k0_pay1 (F := Ideal) x1 x2 x0 (ix3 u f l) = Cert.Unpool.blockProd x0 x1 x2 f l := by
  unfold k0_pay1 Cert.Unpool.blockProd
  refine (shapeCast_ab_1ab_apply _ _ u f l).trans ?_
  refine (matmul_at _ _ f l).trans ?_
  refine Finset.sum_congr rfl fun k _ => ?_
  refine congrArg₂ (· * ·) ?_ ?_
  · exact shapeCast_1ab_ab_apply x0 _ f k
  · refine congrArg₂ Ideal.div ?_ ?_
    · exact shapeCast_1ab_ab_apply x1 _ k l
    · exact (broadcastTo_1b_ab_apply _ _ k l).trans (shapeCast_1ab_ab_apply x2 _ (0 : Fin 1) l)

/-- So the result buffer at (u, f, l) is the block product of the input buffers' contents. -/
theorem result_at (x0 : Vec Ideal S1x128x3000 .f32) (x1 : Vec Ideal S1x3000x512 .f32) (x2 : Vec Ideal S1x1x512 .f32)
    (u : Fin 1) (f : Fin 128) (l : Fin 512) :
    Body.result (F := Ideal) x0 x1 x2 (ix3 u f l) = Cert.Unpool.blockProd x0 x1 x2 f l := by
  rw [result_eq_pay]; exact pay_at x1 x2 x0 u f l

end Cert.KernelIdeal.Payload

end
-- ==== Proof.IdealColumns.lean ====
/-
  Where the array's last axis (6000) is not a multiple of the block's (512), the last block along it overhangs the array
  and its transfers are cut to the 368 columns inside.  The cuts touch the last axis only, and the three windows that are
  cut — the second operand's, the divisors' and the result's — are cut alike.  Since column `l` of the result block reads
  only column `l` of the second operand's block and entry `l` of the divisors' row, the part of the result block that is
  written back does not depend on what the input buffers hold past the array's end.
-/
import proofs.«157500_j15118284881949_1_alg».proof.Proof.IdealPayload

noncomputable section

namespace Cert.KernelIdeal.Columns

open Cert.KernelIdeal Cert.KernelIdeal.Gen
open Idealize.ShloMosaic Idealize.ShloMosaic.ValueIdx
open Idealize.ShloMosaic.Pipeline (Window)

/-- At every grid point the transfers of the second operand's window and of the divisors' window move every coordinate
    of the first two axes, and on the last axis as many columns as the result's write-back does. -/
theorem cuts : ∀ t : Fin grid0.N,
    (win0_1.xsize (grid0.coords t) 0 = 1 ∧ win0_1.xsize (grid0.coords t) 1 = 3000
      ∧ win0_1.xsize (grid0.coords t) 2 = win0_3.xsize (grid0.coords t) 2)
    ∧ (win0_2.xsize (grid0.coords t) 0 = 1 ∧ win0_2.xsize (grid0.coords t) 1 = 1
      ∧ win0_2.xsize (grid0.coords t) 2 = win0_3.xsize (grid0.coords t) 2) := by
  decide +kernel

/-- Two fillings of one moved part agree at every moved index. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- A column the result's write-back moves is a column the second operand's fetch moved, in every row; -/
theorem right_moved (t : Fin grid0.N) (k : Fin 3000) (l : Fin 512) (hl : l.val < win0_3.xsize (grid0.coords t) 2) :
    win0_1.moved (grid0.coords t) (ix3 (0 : Fin 1) k l) = true :=
  (win0_1.moved_iff _ _).mpr fun a => by
    obtain ⟨⟨h0, h1, h2⟩, -⟩ := cuts t
    match a with
    | ⟨0, _⟩ => show (0 : ℕ) < win0_1.xsize (grid0.coords t) 0; rw [h0]; exact Nat.one_pos
    | ⟨1, _⟩ => show k.val < win0_1.xsize (grid0.coords t) 1; rw [h1]; exact k.isLt
    | ⟨2, _⟩ => show l.val < win0_1.xsize (grid0.coords t) 2; rw [h2]; exact hl

/-- and an entry the divisors' fetch moved. -/
theorem divisor_moved (t : Fin grid0.N) (l : Fin 512) (hl : l.val < win0_3.xsize (grid0.coords t) 2) :
    win0_2.moved (grid0.coords t) (ix3 (0 : Fin 1) (0 : Fin 1) l) = true :=
  (win0_2.moved_iff _ _).mpr fun a => by
    obtain ⟨-, ⟨h0, h1, h2⟩⟩ := cuts t
    match a with
    | ⟨0, _⟩ => show (0 : ℕ) < win0_2.xsize (grid0.coords t) 0; rw [h0]; exact Nat.one_pos
    | ⟨1, _⟩ => show (0 : ℕ) < win0_2.xsize (grid0.coords t) 1; rw [h1]; exact Nat.one_pos
    | ⟨2, _⟩ => show l.val < win0_2.xsize (grid0.coords t) 2; rw [h2]; exact hl

/-- The part of the result block that is written back is the same whatever fills the two cut input buffers past the
    array's end. -/
theorem cut_result_indep (t : Fin grid0.N) (x0 : Vec Ideal S1x128x3000 .f32)
    (b1 : (win0_1.xblock (grid0.coords t)).Idx → Elt Ideal .f32) (b2 : (win0_2.xblock (grid0.coords t)).Idx → Elt Ideal .f32)
    (d1 d1' : S1x3000x512.Idx → Elt Ideal .f32) (d2 d2' : S1x1x512.Idx → Elt Ideal .f32) :
    win0_3.cut (grid0.coords t) (Body.result (F := Ideal) x0 (win0_1.fill (grid0.coords t) d1 b1) (win0_2.fill (grid0.coords t) d2 b2))
      = win0_3.cut (grid0.coords t) (Body.result (F := Ideal) x0 (win0_1.fill (grid0.coords t) d1' b1) (win0_2.fill (grid0.coords t) d2' b2)) := by
  funext j
  have hl : ((win0_3.xinj (grid0.coords t) j) 2).val < win0_3.xsize (grid0.coords t) 2 := (j 2).isLt
  have e : win0_3.xinj (grid0.coords t) j
      = ix3 ((win0_3.xinj (grid0.coords t) j) 0 : Fin 1) ((win0_3.xinj (grid0.coords t) j) 1 : Fin 128) ((win0_3.xinj (grid0.coords t) j) 2 : Fin 512) :=
    eq_ix3 _
  show Body.result (F := Ideal) x0 _ _ (win0_3.xinj (grid0.coords t) j) = Body.result (F := Ideal) x0 _ _ (win0_3.xinj (grid0.coords t) j)
  refine ((congrArg _ e).trans (Payload.result_at _ _ _ _ _ _)).trans (Eq.trans ?_ ((congrArg _ e).trans (Payload.result_at _ _ _ _ _ _)).symm)
  exact Cert.Unpool.blockProd_congr _ _ _ _ _ _ _
    (fun k => fill_eq_of_moved win0_1 _ d1 d1' b1 _ (right_moved t k _ hl))
    (fill_eq_of_moved win0_2 _ d2 d2' b2 _ (divisor_moved t _ hl))

end Cert.KernelIdeal.Columns

end
-- ==== Proof.IdealData.lean ====
/-
  The proof data of the idealized kernel's pipeline and its run.

  At grid point t = (b, tt) the pipeline hands the body four staging buffers.  The first operand's holds block b of the
  first array, whole (that window's blocks tile its array).  The second operand's and the divisors' were fetched at this
  point: they hold columns tt·512 … of batch b on the columns inside the array and, at the last tt, words nothing names
  past it.  The result's holds anything.  The body leaves the three inputs as found and the result buffer at `result` of
  them.  What is recorded per point is: the first block itself; the two fetched blocks filled out with the zero word; and
  `result` of those.  The body obligation for the three cut windows only speaks of the part their transfers move, and on
  that part what the body really leaves agrees with what is recorded, because the moved columns of the result do not read
  the filler.
-/
import proofs.«157500_j15118284881949_1_alg».proof.Proof.IdealColumns
import Idealize.ShloMosaic.Lib.Pipeline.Frame

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold -/

/-- The second operand's block at point `t`: its part inside the array, filled out to the buffer's shape with the zero word. -/
def right (c : Dev nD) (t : Fin cfg0.N) : S1x3000x512.Idx → Elt Ideal .f32 :=
  win0_1.fill (grid0.coords t) (fun _ => Scalar.ofBits (F := Ideal) .f32 0#32) (iblk m c 1 t)

/-- The divisors' block at point `t`, likewise. -/
def divisor (c : Dev nD) (t : Fin cfg0.N) : S1x1x512.Idx → Elt Ideal .f32 :=
  win0_2.fill (grid0.coords t) (fun _ => Scalar.ofBits (F := Ideal) .f32 0#32) (iblk m c 2 t)

/-- The proof data of the one pipeline on core `c`: the arrays as the region finds them; after the body at point `t` the
    first operand's buffer at its block, the two cut inputs' at their filled-out blocks, the result's at `result` of those;
    the invariant the scoped rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => right m c t
    | ⟨2, _⟩ => divisor m c t
    | ⟨3, _⟩ => Body.result (F := Ideal) (iblk m c 0 t) (right m c t) (divisor m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = right m c t := by dsimp only [dats]
theorem after2 (c : Dev nD) (t : Fin cfg0.N) : (dats m 0 c).after 2 t = divisor m c t := by dsimp only [dats]
theorem after3 (c : Dev nD) (t : Fin cfg0.N) :
    (dats m 0 c).after 3 t = Body.result (F := Ideal) (iblk m c 0 t) (right m c t) (divisor m c t) := by dsimp only [dats]

/-! ## What the body finds -/

/-- The first operand's buffer holds its block at every point, fetched there or kept from the point before. -/
theorem before0 (c : Dev nD) (t : Fin cfg0.N) (d) : (dats m 0 c).before 0 t d = iblk m c 0 t :=
  before0_0_of m (dats m 0 c) (A_eq m c 0) (after0 m c) t d

/-- The second operand's buffer was fetched at this point: its block on the moved part, `d` elsewhere. -/
theorem before1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]; try rfl

/-- The divisors' buffer likewise. -/
theorem before2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]; try rfl

/-- The result's buffer is written back at every point, so the body finds it at contents nothing names. -/
theorem before3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation, at a generic point -/

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the uncut window's buffer at what is recorded, each cut window's at what is recorded on the part
    its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (Body.sound_kernel c Set.univ _ _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (right m c t) = iblk m c 1 t from win0_1.cut_fill _ _ _]
    iexact H1
  isplitl [H2]
  · iexists d2
    rw [show (cfg0.win 2).cut (cfg0.grid.coords t) (divisor m c t) = iblk m c 2 t from win0_2.cut_fill _ _ _]
    iexact H2
  · iexists Body.result (F := Ideal) (iblk m c 0 t) (win0_1.fill (grid0.coords t) d1 (iblk m c 1 t)) (win0_2.fill (grid0.coords t) d2 (iblk m c 2 t))
    rw [show (cfg0.win 3).fill (cfg0.grid.coords t)
          (Body.result (F := Ideal) (iblk m c 0 t) (win0_1.fill (grid0.coords t) d1 (iblk m c 1 t)) (win0_2.fill (grid0.coords t) d2 (iblk m c 2 t)))
          ((cfg0.win 3).cut (cfg0.grid.coords t) (Body.result (F := Ideal) (iblk m c 0 t) (right m c t) (divisor m c t)))
        = Body.result (F := Ideal) (iblk m c 0 t) (win0_1.fill (grid0.coords t) d1 (iblk m c 1 t)) (win0_2.fill (grid0.coords t) d2 (iblk m c 2 t))
      from win0_3.fill_congr_cut _ (Columns.cut_result_indep t _ _ _ _ _ _ _)]
    iexact H3

/-- The library's body obligation, in the form that speaks of a cut window's buffer on its moved part only. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, every array of the pipeline ending at what the library computes from
    the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Data

end
-- ==== Proof.IdealFinal.lean ====
/-
  From blocks to the array: the idealized kernel's result array after the run is the normalized product of its arguments.

  Grid point t = (b, tt) writes back the part of its [1, 128, 512] result block that lies inside the array: rows 0‥127 of
  batch b, columns tt·512 … up to the array's end.  Entry (0, f, l) of that part is the block product of the first
  operand's block b, the second operand's columns tt·512 + l of batch b, and divisor (b, tt·512 + l): which is the
  normalized product of the whole arrays at (b, f, tt·512 + l).  Every index (b, f, c) of the array lies in the block of
  the point (b, c / 512), so the array ends holding the normalized product everywhere.
-/
import proofs.«157500_j15118284881949_1_alg».proof.Proof.IdealData
import Idealize.ShloMosaic.Lib.Pipeline.Value
import Idealize.ShloMosaic.Lib.StableHlo.Run

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Window)
open scoped BigOperators

variable (m : (ℓ : Loc nD τ sig) → Buf (Elt Ideal) ℓ) (ρ : Dev nD → PrngReg)

/-! ## The divisors' array as the region finds it -/

/-- The one host operation before the region gives the third argument a unit middle axis. -/
theorem divisors_eq (c : Dev nD) :
    (V m c main_v0 : S4x1x6000.Idx → Elt Ideal .f32)
      = broadcastInDim S4x1x6000 ![0, 2] bcast_S4x6000_S4x1x6000_0_2 (m ((c : Thread nD τ).loc main_arg2)) := by
  dsimp only [Gen.V, Gen.hostOps0]; after_results

/-- Read at (b, 0, t) it is the third argument at (b, t). -/
theorem divisors_at (c : Dev nD) (b : Fin 4) (u : Fin 1) (t' : Fin 6000) :
    (V m c main_v0 : S4x1x6000.Idx → Elt Ideal .f32) (ix3 b u t') = m ((c : Thread nD τ).loc main_arg2) (ix2 b t') := by
  rw [divisors_eq]
  exact broadcastInDim_apply _ bcast_S4x6000_S4x1x6000_0_2 _ (ix3 b u t') (ix2 b t') (fun a => match a with
    | ⟨0, _⟩ => by show b.val = if (4 : Nat) = 1 then 0 else b.val; rw [if_neg (by decide)]
    | ⟨1, _⟩ => by show t'.val = if (6000 : Nat) = 1 then 0 else t'.val; rw [if_neg (by decide)])

/-! ## What every point writes back -/

/-- The normalized product of the arrays as the region finds them. -/
def target (c : Dev nD) : S4x128x6000.Idx → Elt Ideal .f32 :=
  Cert.Unpool.normProd (V m c main_arg0) (V m c main_arg1) (m ((c : Thread nD τ).loc main_arg2))

/-- The printed index maps, decided once over the grid: every window's block is in the batch the result's block is in;
    the second operand's and the divisors' blocks sit at the result block's columns; the other block indices are zero; and
    the result's write-back moves whole rows, the columns up to the array's end. -/
theorem idx_facts : ∀ t : Fin grid0.N,
    (win0_0.index t 0 = win0_3.index t 0 ∧ win0_0.index t 1 = 0 ∧ win0_0.index t 2 = 0)
    ∧ (win0_1.index t 0 = win0_3.index t 0 ∧ win0_1.index t 1 = 0 ∧ win0_1.index t 2 = win0_3.index t 2)
    ∧ (win0_2.index t 0 = win0_3.index t 0 ∧ win0_2.index t 1 = 0 ∧ win0_2.index t 2 = win0_3.index t 2)
    ∧ win0_3.index t 1 = 0
    ∧ win0_3.xsize (grid0.coords t) 0 = 1 ∧ win0_3.xsize (grid0.coords t) 1 = 128
    ∧ win0_3.index t 2 * 512 + win0_3.xsize (grid0.coords t) 2 = min ((win0_3.index t 2 + 1) * 512) 6000 := by
  decide +kernel

/-- Every (batch, column block) is some point's. -/
theorem idx_onto : ∀ (b : Fin 4) (q : Fin 12), ∃ t : Fin grid0.N, win0_3.index t 0 = b.val ∧ win0_3.index t 2 = q.val := by
  decide +kernel

/-- A filled-out block read at an index its transfer moves is the block there. -/
theorem fill_at {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-- WHAT POINT `t` WRITES BACK is block `t` of the normalized product. -/
theorem flushed_eq (c : Dev nD) (t : Fin cfg0.N) :
    (Data.dats m 0 c).flushed 3 t = ((cfg0.win 3).blk t).view.read (Elt Ideal) (target m c) := by
  show (cfg0.win 3).cut (grid0.coords t) ((Data.dats m 0 c).after 3 t) = _
  rw [Data.after3]
  obtain ⟨⟨a0, a1, a2⟩, ⟨b0, b1, b2⟩, ⟨c0, c1, c2⟩, o1, x0, x1, x2⟩ := idx_facts t
  funext j
  have hj0 : (j 0).val < win0_3.xsize (grid0.coords t) 0 := (j 0).isLt
  have hj1 : (j 1).val < win0_3.xsize (grid0.coords t) 1 := (j 1).isLt
  have hl : ((win0_3.xinj (grid0.coords t) j) 2).val < win0_3.xsize (grid0.coords t) 2 := (j 2).isLt
  have e : win0_3.xinj (grid0.coords t) j
      = ix3 ((win0_3.xinj (grid0.coords t) j) 0 : Fin 1) ((win0_3.xinj (grid0.coords t) j) 1 : Fin 128) ((win0_3.xinj (grid0.coords t) j) 2 : Fin 512) :=
    eq_ix3 _
  show Body.result (F := Ideal) _ _ _ (win0_3.xinj (grid0.coords t) j) = target m c (((cfg0.win 3).blk t).view.emb j)
  refine ((congrArg _ e).trans (Payload.result_at _ _ _ _ _ _)).trans ?_
  unfold Cert.Unpool.blockProd target Cert.Unpool.normProd
  refine Finset.sum_congr rfl fun k _ => ?_
  refine congrArg₂ (· * ·) ?_ (congrArg₂ Ideal.div ?_ ?_)
  · -- the first operand's block, read where the result's rectangle says
    show V m c main_arg0 (((cfg0.win 0).blk t).view.emb (ix3 (0 : Fin 1) ((win0_3.xinj (grid0.coords t) j) 1 : Fin 128) k)) = V m c main_arg0 _
    refine congrArg (V m c main_arg0) (funext fun a => Fin.ext ?_)
    match a with
    | ⟨0, _⟩ => show win0_0.index t 0 * 1 + 1 * 0 = win0_3.index t 0 * 1 + 1 * (j 0).val; omega
    | ⟨1, _⟩ => show win0_0.index t 1 * 128 + 1 * (j 1).val = win0_3.index t 1 * 128 + 1 * (j 1).val; omega
    | ⟨2, _⟩ => show win0_0.index t 2 * 3000 + 1 * k.val = k.val; omega
  · -- the second operand's block at a moved column
    unfold Data.right
    rw [fill_at win0_1 _ _ _ _ (Columns.right_moved t k _ hl)]
    show V m c main_arg1 (((cfg0.win 1).blk t).view.emb _) = V m c main_arg1 _
    refine congrArg (V m c main_arg1) (funext fun a => Fin.ext ?_)
    match a with
    | ⟨0, _⟩ => show win0_1.index t 0 * 1 + 1 * 0 = win0_3.index t 0 * 1 + 1 * (j 0).val; omega
    | ⟨1, _⟩ => show win0_1.index t 1 * 3000 + 1 * k.val = k.val; omega
    | ⟨2, _⟩ => show win0_1.index t 2 * 512 + 1 * (j 2).val = win0_3.index t 2 * 512 + 1 * (j 2).val; omega
  · -- the divisors' row at a moved entry
    unfold Data.divisor
    rw [fill_at win0_2 _ _ _ _ (Columns.divisor_moved t _ hl)]
    show V m c main_v0 (((cfg0.win 2).blk t).view.emb _) = _
    refine (congrArg (V m c main_v0) (funext fun a => Fin.ext ?_ :
      _ = ix3 ((((cfg0.win 3).blk t).view.emb j) 0 : Fin 4) (0 : Fin 1) ((((cfg0.win 3).blk t).view.emb j) 2 : Fin 6000))).trans
      (divisors_at m c _ _ _)
    match a with
    | ⟨0, _⟩ => show win0_2.index t 0 * 1 + 1 * 0 = win0_3.index t 0 * 1 + 1 * (j 0).val; omega
    | ⟨1, _⟩ => show win0_2.index t 1 * 1 + 1 * 0 = 0; omega
    | ⟨2, _⟩ => show win0_2.index t 2 * 512 + 1 * (j 2).val = win0_3.index t 2 * 512 + 1 * (j 2).val; omega

/-! ## The cover -/

/-- An index of the array is in point `t`'s block iff on every axis its coordinate is among those the write-back moves. -/
theorem mem_blk (t : Fin cfg0.N) (i : S4x128x6000.Idx) :
    i ∈ ((cfg0.win 3).blk t).view.set ↔ ∀ a : Fin 3, win0_3.index t a * S1x128x512.size a ≤ (i a).val
      ∧ (i a).val < win0_3.index t a * S1x128x512.size a + win0_3.xsize (grid0.coords t) a := by
  show i ∈ ((View.whole main_v1).slice (win0_3.rect t)).set ↔ _
  rw [View.set_slice_whole, Rect.mem_set_unit]
  exact Iff.rfl

/-- Every index of the array is in some point's block: (b, f, c) in that of the point at batch b and column block c / 512. -/
theorem cover (i : S4x128x6000.Idx) : ∃ t : Fin cfg0.N, (cfg0.win 3).flush t = true ∧ i ∈ ((cfg0.win 3).blk t).view.set := by
  have h0 : (i 0).val < 4 := (i 0).isLt
  have h1 : (i 1).val < 128 := (i 1).isLt
  have h2 : (i 2).val < 6000 := (i 2).isLt
  obtain ⟨t, ht0, ht2⟩ := idx_onto ⟨(i 0).val, h0⟩ ⟨(i 2).val / 512, by omega⟩
  obtain ⟨-, -, -, o1, x0, x1, x2⟩ := idx_facts t
  have ht0' : win0_3.index t 0 = (i 0).val := ht0
  have ht2' : win0_3.index t 2 = (i 2).val / 512 := ht2
  refine ⟨t, flush0_3 t, (mem_blk t i).mpr fun a => ?_⟩
  match a with
  | ⟨0, _⟩ =>
    show win0_3.index t 0 * 1 ≤ (i 0).val ∧ (i 0).val < win0_3.index t 0 * 1 + win0_3.xsize (grid0.coords t) 0
    omega
  | ⟨1, _⟩ =>
    show win0_3.index t 1 * 128 ≤ (i 1).val ∧ (i 1).val < win0_3.index t 1 * 128 + win0_3.xsize (grid0.coords t) 1
    omega
  | ⟨2, _⟩ =>
    show win0_3.index t 2 * 512 ≤ (i 2).val ∧ (i 2).val < win0_3.index t 2 * 512 + win0_3.xsize (grid0.coords t) 2
    omega

/-! ## The array after the run, and the run -/

/-- THE RESULT ARRAY after the run is the normalized product of the arrays as the region finds them. -/
theorem final (c : Dev nD) : (Data.dats m 0 c).arrAt 3 cfg0.N = target m c :=
  (Data.dats m 0 c).arrAt_eq_of_cover 3 (target m c) (fun t _ => flushed_eq m c t) cover

/-- Every weakly fair execution of the idealized kernel terminates with the result array at the normalized product of the
    argument arrays, and the arguments unchanged. -/
theorem run : θ_run defs (onTc (τ := τ) (main (F := Ideal))) ⟨m, fun _ => 0, ρ⟩ fun r => ∀ c : Dev nD,
      r.2.mem ((c : Thread nD τ).loc main_v1)
        = Cert.Unpool.normProd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans ((final m c).trans (by unfold target; rw [V_main_arg0, V_main_arg1])),
      ((h c).1 0).trans (((Data.dats m 0 c).arrAt_in 0 rfl _).trans ((Data.A_eq m c 0).trans (V_main_arg0 m c))),
      ((h c).1 1).trans (((Data.dats m 0 c).arrAt_in 1 rfl _).trans ((Data.A_eq m c 1).trans (V_main_arg1 m c))),
      ((h c).2 main_arg2 (Pipeline.mem_restRefs_of main_arg2 (by decide) (by decide))).trans (V_main_arg2 m c)⟩)
    (Data.run_main m ρ)

end Cert.KernelIdeal.Final

end
-- ==== Proof.RefValue.lean ====
/-
  The reference computes the specification: its result array, as its run's composed term of the argument arrays, is the
  normalized product index by index.  The reference broadcasts the divisors along the contracted axis, divides, and
  contracts axis 2 of the first operand with axis 1 of the quotient, batch axis 0 against batch axis 0; read at (b, f, t)
  that is the sum over e of `x0 (b, f, e) · (x1 (b, e, t) / x2 (b, t))`.
-/
import proofs.«157500_j15118284881949_1_alg».proof.Proof.Gen.ReferenceIdeal.Read
import proofs.«157500_j15118284881949_1_alg».proof.Proof.Spec

noncomputable section

namespace Cert.Unpool

open Cert.ReferenceIdeal Cert.ReferenceIdeal.Gen Cert.ReferenceIdeal.Read
open Idealize.ShloMosaic Idealize.ShloMosaic.ValueIdx
open scoped BigOperators

/-- The reference's last stage is the normalized product of its arguments. -/
theorem reference_eq (x0 : (⟨S4x128x3000, .f32⟩ : BufTy).Contents (Elt Ideal)) (x1 : (⟨S4x3000x6000, .f32⟩ : BufTy).Contents (Elt Ideal))
    (x2 : (⟨S4x6000, .f32⟩ : BufTy).Contents (Elt Ideal)) :
    val_main_v3 (F := Ideal) x0 x1 x2 = normProd x0 x1 x2 := by
  funext i
  rw [val_main_v3_apply]
  unfold normProd
  refine Finset.sum_congr rfl fun k _ => ?_
  rw [val_main_v2_apply, val_main_v1_apply, val_main_v0_apply]
  have e0 : lidx_main_v3 i k = ix3 (i 0 : Fin 4) (i 1 : Fin 128) k :=
    funext fun a => Fin.ext (by match a with | ⟨0, _⟩ => rfl | ⟨1, _⟩ => rfl | ⟨2, _⟩ => rfl)
  have e1 : ridx_main_v3 i k = ix3 (i 0 : Fin 4) k (i 2 : Fin 6000) :=
    funext fun a => Fin.ext (by match a with | ⟨0, _⟩ => rfl | ⟨1, _⟩ => rfl | ⟨2, _⟩ => rfl)
  have e2 : idx_main_v0 (idx_main_v1 (ridx_main_v3 i k)) = ix2 (i 0 : Fin 4) (i 2 : Fin 6000) :=
    funext fun a => Fin.ext (by match a with | ⟨0, _⟩ => rfl | ⟨1, _⟩ => rfl)
  rw [e0, e1, e2]
  rfl

end Cert.Unpool

end
-- ==== Proof.lean ====
/-
  The certificate's claim, assembled.

  Both idealized programs compute, at every index (b, f, t), the sum over e of `x0 (b, f, e) · (x1 (b, e, t) / x2 (b, t))`
  on the extended reals: the kernel block by block (a change of float format is the identity there and a matrix product
  into zero is the plain sum), the reference by one batched contraction.  Neither side moves a factor across the sum, so
  the two are one function without any appeal to the inputs being finite.

  The frames: each kernel program runs through its pipeline of 4 × 12 grid points, the last block along the 6000-wide
  axis cut at the array's end, and never writes an argument array; the reference is host operations only.  The
  idealization rewrote nothing, so there is nothing to preserve.
-/
import proofs.«157500_j15118284881949_1_alg».proof.Defs
import proofs.«157500_j15118284881949_1_alg».proof.Proof.Gen.Pre_finite_inputs
import proofs.«157500_j15118284881949_1_alg».proof.Proof.KernelFrame
import proofs.«157500_j15118284881949_1_alg».proof.Proof.IdealFinal
import proofs.«157500_j15118284881949_1_alg».proof.Proof.RefValue
import Idealize.ShloMosaic.Adequacy
import Idealize.ShloMosaic.Init

noncomputable section

namespace Cert.Proof

open Idealize.ShloMosaic Idealize.SL.Sem

/-- The word-level kernel's frame. -/
theorem frame_kernel : Cert.frame_Kernel := fun m ρ _ => Cert.Kernel.Data.frame (F := Bits) m ρ

/-- The idealized kernel's frame. -/
theorem frame_kernelIdeal : Cert.frame_KernelIdeal := fun m ρ _ => Cert.KernelIdeal.Data.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the result array at the normalized
    product of the arguments. -/
theorem algebraic : Cert.algebraic_KernelIdeal_ReferenceIdeal := by
  intro m ρ m' ρ' _ hagree
  refine ⟨fun c => Cert.Unpool.normProd (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Unpool.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
